-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x4096x512 : Shape := ⟨3, ![8, 4096, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x4096x512 : S_.BroadcastsInDim S8x4096x512 (![] : Fin 0 → Fin S8x4096x512.rank)
  reducesTo_S8x4096x512_S_d0_1_2 : S8x4096x512.ReducesTo [0, 1, 2] S_

variable [Facts]

def fn {F : FTy → Type} [FloatOps F] (main_arg0 : FVec F S8x2048x512 .f32) (main_arg1 : FVec F S8x4096x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  main_v8
-- ==== Kernel.lean ====
abbrev S8x2048x512 : Shape := ⟨3, ![8, 2048, 512]⟩
abbrev S8x4096x512 : Shape := ⟨3, ![8, 4096, 512]⟩
abbrev S8x2048x1 : Shape := ⟨3, ![8, 2048, 1]⟩
abbrev S1x512x512 : Shape := ⟨3, ![1, 512, 512]⟩
abbrev S1x1024x512 : Shape := ⟨3, ![1, 1024, 512]⟩
abbrev S1x512x1 : Shape := ⟨3, ![1, 512, 1]⟩
abbrev S512x1 : Shape := ⟨2, ![512, 1]⟩
abbrev S512x512 : Shape := ⟨2, ![512, 512]⟩
abbrev S1024x512 : Shape := ⟨2, ![1024, 512]⟩
abbrev S512 : Shape := ⟨1, ![512]⟩
abbrev S1024 : Shape := ⟨1, ![1024]⟩
abbrev S1024x1 : Shape := ⟨2, ![1024, 1]⟩
abbrev S512x1024 : Shape := ⟨2, ![512, 1024]⟩
abbrev S8x2048 : Shape := ⟨2, ![8, 2048]⟩
abbrev S_ : Shape := ⟨0, ![]⟩
abbrev S8 : Shape := ⟨1, ![8]⟩

abbrev nBuf : Space → Nat
  | .hbm => 9
  | .vmem => 7
  | .smem => 0
  | _ => 0

abbrev bufTy : (tb : Table) → Fin (tcTables nBuf tb) → BufTy
  | .hbm, ⟨0, _⟩ => ⟨S8x2048x512, .f32⟩
  | .hbm, ⟨1, _⟩ => ⟨S8x4096x512, .f32⟩
  | .hbm, ⟨2, _⟩ => ⟨S8x2048x1, .f32⟩
  | .hbm, ⟨3, _⟩ => ⟨S8x2048, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .local _ .vmem, ⟨0, _⟩ => ⟨S1x512x512, .f32⟩
  | .local _ .vmem, ⟨1, _⟩ => ⟨S1x512x512, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1, .f32⟩
  | .local _ .vmem, ⟨5, _⟩ => ⟨S1x512x1, .f32⟩
  | .local _ .vmem, ⟨6, _⟩ => ⟨S512x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v35 : BitVec 1 := Scalar.cmpi .eq arg2 c3_i32
  let v36 : BitVec 32 := Scalar.extui v35
  let c0_i32_16 : BitVec 32 := 0#32
  let v37 : BitVec 1 := Scalar.cmpi .ne v36 c0_i32_16
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S512x512_S512 : S512x512.Reduces [1] S512
  shapeCasts_S512_S512x1 : S512.ShapeCasts S512x1
  reduces_S1024x512_S1024 : S1024x512.Reduces [1] S1024
  shapeCasts_S1024_S1024x1 : S1024.ShapeCasts S1024x1
  broadcasts_S512x1_S512x512 : S512x1.Broadcasts S512x512
  bitsLt_bf16_f32 : FTy.bits .bf16 < FTy.bits .f32
  broadcasts_S1024x1_S1024x512 : S1024x1.Broadcasts S1024x512
  reduces_S512x1024_S512 : S512x1024.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S8x2048x1_S8x2048 : S8x2048x1.ShapeCasts S8x2048
  reducesTo_S8x2048_S8_d1 : S8x2048.ReducesTo [1] S8
  h_S_ : 0 < S_.numel
  bcast_S_S8 : S_.BroadcastsInDim S8 (![] : Fin 0 → Fin S8.rank)
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x4096x512.size a
  hwx0_1 : ∀ i : grid0.Coords, EltTy.bits .f32 = 32 ∨ (Rect.block (s := S8x4096x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x2048x1.size a
  hwx0_2 : ∀ i : grid0.Coords, EltTy.bits .f32 = 32 ∨ (Rect.block (s := S8x2048x1) S1x512x1.size (cc0_transform_2 i) (hinb0_2 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S8x4096x512 : Shape := ⟨3, ![8, 4096, 512]⟩
abbrev S_ : Shape := ⟨0, ![]⟩
abbrev S8x2048 : Shape := ⟨2, ![8, 2048]⟩
abbrev S8x2048x1 : Shape := ⟨3, ![8, 2048, 1]⟩
abbrev S8x4096 : Shape := ⟨2, ![8, 4096]⟩
abbrev S8x4096x1 : Shape := ⟨3, ![8, 4096, 1]⟩
abbrev S8x2048x4096 : Shape := ⟨3, ![8, 2048, 4096]⟩
abbrev S8 : Shape := ⟨1, ![8]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x4096x512, .f32⟩
  | .hbm, ⟨2, _⟩ => ⟨S8x2048x512, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x512, .f32⟩
  | .hbm, ⟨11, _⟩ => ⟨S8x2048x512, .f32⟩
  | .hbm, ⟨12, _⟩ => ⟨S8x4096x512, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x512, .f32⟩
  | .hbm, ⟨21, _⟩ => ⟨S8x4096x512, .f32⟩
  | .hbm, ⟨22, _⟩ => ⟨S8x2048x4096, .f32⟩
  | .hbm, ⟨23, _⟩ => ⟨S_, .f32⟩
  | .hbm, ⟨24, _⟩ => ⟨S8x2048x4096, .f32⟩
  | .hbm, ⟨25, _⟩ => ⟨S8x2048x4096, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x512_0_1_2 : S8x2048x1.BroadcastsInDim S8x2048x512 (![0, 1, 2] : Fin 3 → Fin S8x2048x512.rank)
  reducesTo_S8x4096x512_S8x4096_d2 : S8x4096x512.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x512_0_1_2 : S8x4096x1.BroadcastsInDim S8x4096x512 (![0, 1, 2] : Fin 3 → Fin S8x4096x512.rank)
  bcast_S_S8x2048x4096 : S_.BroadcastsInDim S8x2048x4096 (![] : Fin 0 → Fin S8x2048x4096.rank)
  reducesTo_S8x2048x4096_S8x2048_d2 : S8x2048x4096.ReducesTo [2] S8x2048
  reducesTo_S8x2048_S8_d1 : S8x2048.ReducesTo [1] S8
  bcast_S_S8 : S_.BroadcastsInDim S8 (![] : Fin 0 → Fin S8.rank)
  dot_S8x2048x512_S8x4096x512_S8x2048x4096_2_2_1_1_0_0_wf : DotDims.WF S8x2048x512 S8x4096x512 S8x2048x4096 [2] [2] [1] [1] [0] [0]

variable [Facts₀]

def dot_S8x2048x512_S8x4096x512_S8x2048x4096_2_2_1_1_0_0 : DotDims S8x2048x512 S8x4096x512 S8x2048x4096 where
  lhsContracting := [2]
  rhsContracting := [2]
  lhsNonContracting := [1]
  rhsNonContracting := [1]
  lhsBatch := [0]
  rhsBatch := [0]
  wf := dot_S8x2048x512_S8x4096x512_S8x2048x4096_2_2_1_1_0_0_wf

class Facts : Prop extends Facts₀ where

variable [Facts]
-- ==== Proof.LibRowMin.lean ====
/-
  General facts about minima, at the exact instance (floats as extended reals) and in any linear order:
  a minimum taken over one axis of an array is the fold of `min`, from the starting value, over that axis's
  coordinates — for a lane reduction of a matrix along its rows and for a host reduction of a rank-3 array along
  its last axis —, and the fold of `min` over the first `n + B` members of a family is the smaller of the fold over
  the first `n` and the fold over the next `B`.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowMin

open Idealize.ShloMosaic Idealize.ShloMosaic.ValueIdx

variable {M N A B C : Nat}

/-- A lane minimum over one axis, at the exact instance: the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The minimum over the second axis of an [M, N] matrix, read at row p: the fold of `min`, from the accumulator's
    value, over the row's entries. -/
theorem rowMin_apply (src : FVec Ideal ⟨2, ![M, N]⟩ .f32) (acc : BitVec 32) (h : (⟨2, ![M, N]⟩ : Shape).Reduces [1] ⟨1, ![M]⟩)
    (hφ : FKind.Formats .f32) (hacc : acc = FKind.minimumf.neutral .f32 hφ) (p : Fin M) :
    multiReduction .minimumf [1] ⟨1, ![M]⟩ src acc h hφ hacc (ix1 p)
      = (Finset.univ : Finset (Fin N)).fold min (Ideal.ofBits .f32 acc) (fun k => src (ix2 p k)) := by
  refine (multiReduction_minimumf_single src acc h hφ hacc (ix1 p)).trans ?_
  have e : (src ∘ h.lift (ix1 p)) = fun k => src (ix2 p k) := funext fun k => congrArg src (lift_row h p k)
  rw [e]
  rfl

/-- The index of an [A, B, C] array that drops to (a, b) when the last axis is reduced, with k put on that axis, is
    (a, b, k). -/
theorem lift_last (h : (⟨3, ![A, B, C]⟩ : Shape).Reduces [2] ⟨2, ![A, B]⟩) (a : Fin A) (b : Fin B) (k : Fin C) :
    h.lift (ix2 a b) k = ix3 a b k := by
  funext d
  apply Fin.ext
  match d with
  | ⟨0, _⟩ => rfl
  | ⟨1, _⟩ => rfl
  | ⟨2, _⟩ => rfl

/-- The host's reduction by minimum over the last axis of an [A, B, C] array, read at (a, b): the fold of `min`, from
    the initial value's one element, over the entries (a, b, ·). -/
theorem hostLastMin_apply {u : Shape} (x : (⟨3, ![A, B, C]⟩ : Shape).Idx → EReal) (init : u.Idx → EReal)
    (h' : (⟨3, ![A, B, C]⟩ : Shape).ReducesTo [2] ⟨2, ![A, B]⟩) (h : (⟨3, ![A, B, C]⟩ : Shape).Reduces [2] ⟨2, ![A, B]⟩)
    (hu : 0 < u.numel) (a : Fin A) (b : Fin B) :
    Host.reduce (FloatOps.minimumf (F := Ideal) (φ := .f32)) x init h' hu (ix2 a b)
      = (Finset.univ : Finset (Fin C)).fold min (init (Shape.Idx.first hu)) (fun k => x (ix3 a b k)) := by
  refine (Host.reduce_eq_fold_single _ x init h' h hu (ix2 a b)).trans ?_
  have e : (x ∘ h.lift (ix2 a b)) = fun k => x (ix3 a b k) := funext fun k => congrArg x (lift_last h a b k)
  rw [e]
  rfl

/-- In a linear order, the fold of `min` from `b` over the members of a family of index below `n + B` is the smaller
    of the fold over those below `n` and the fold over a block `g` of `B` values that are the family's members
    `n, …, n + B - 1`. -/
theorem fold_min_extend {α : Type} [LinearOrder α] {K L : Nat} (b : α) (f : Fin K → α) (g : Fin L → α) (n : Nat)
    (hn : n + L ≤ K) (hg : ∀ (j : Fin L) (s : Fin K), s.val = n + j.val → g j = f s) :
    min ((Finset.univ.filter fun s : Fin K => s.val < n).fold min b f) ((Finset.univ : Finset (Fin L)).fold min b g)
      = (Finset.univ.filter fun s : Fin K => s.val < n + L).fold min b f := by
  refine eq_of_forall_le_iff fun c => ?_
  simp only [le_min_iff, Finset.le_fold_min, Finset.mem_filter, Finset.mem_univ, true_and]
  constructor
  · rintro ⟨⟨hb, h1⟩, -, h2⟩
    refine ⟨hb, fun s hs => ?_⟩
    by_cases h : s.val < n
    · exact h1 s h
    · have h3 := h2 ⟨s.val - n, by omega⟩ trivial
      rwa [hg ⟨s.val - n, by omega⟩ s (by show s.val = n + (s.val - n); omega)] at h3
  · rintro ⟨hb, h⟩
    refine ⟨⟨hb, fun s hs => h s (by omega)⟩, hb, fun j _ => ?_⟩
    have hj := j.isLt
    have hlt : n + j.val < K := by omega
    rw [hg j ⟨n + j.val, hlt⟩ rfl]
    exact h ⟨n + j.val, hlt⟩ (by show n + j.val < n + L; omega)

/-- The fold over the members of index below 0 is the starting value. -/
theorem fold_min_none {α : Type} [LinearOrder α] {K : Nat} (b : α) (f : Fin K → α) :
    (Finset.univ.filter fun s : Fin K => s.val < 0).fold min b f = b := by
  rw [Finset.filter_false_of_mem fun s _ => Nat.not_lt_zero _]
  rfl

/-- The fold over the members of index below the family's length is the fold over the whole family. -/
theorem fold_min_all {α : Type} [LinearOrder α] {K : Nat} (b : α) (f : Fin K → α) :
    (Finset.univ.filter fun s : Fin K => s.val < K).fold min b f = (Finset.univ : Finset (Fin K)).fold min b f := by
  rw [Finset.filter_true_of_mem fun s _ => s.isLt]

end Cert.LibRowMin

end
-- ==== Proof.Nearest.lean ====
/-
  The function both programs compute, stated once over the extended reals and over no program.

  A row `r` of `n` entries is scaled to unit length as torch's `normalize` does it: each entry divided by the larger
  of the row's Euclidean length `sqrt (∑ r²)` and the f32 value of `1e-12`. The cosine distance of two rows is one
  minus the inner product of their scaled rows. The nearest distance from a row `u` to a family `S` of rows is the
  minimum, taken from plus infinity, of the distances from `u` to the members of `S`; `upTo u S lim` is the same
  minimum over the members of index below `lim` only. A minimum over the first `lim + L` members is the smaller of
  the minimum over the first `lim` and the minimum over the next `L`, which is how a minimum over the whole family is
  reached one block of members at a time.
-/
import Idealize.ShloMosaic.PureOps.Ideal.Laws
import Idealize.ShloMosaic.Lib.ValueIdx
import proofs.«139094_j22660247453906_2_alg».proof.Proof.LibRowMin

noncomputable section

namespace Cert.Nearest

open Idealize.ShloMosaic Idealize.ShloMosaic.ValueIdx

/-- The f32 value written `1e-12`: the floor under a row's length. -/
abbrev epsW : EReal := Ideal.ofBits .f32 0x2B8CBCCC#32
/-- The f32 value one. -/
abbrev oneW : EReal := Ideal.ofBits .f32 0x3F800000#32
/-- The f32 plus infinity: where a minimum starts. -/
abbrev infW : EReal := Ideal.ofBits .f32 0x7F800000#32

variable {n K L : Nat}

/-- The larger of a row's Euclidean length and the floor. -/
def len (r : Fin n → EReal) : EReal := max (Ideal.sqrt (∑ k : Fin n, r k * r k)) epsW

/-- A row scaled to unit length: each entry over the floored length. -/
def unitRow (r : Fin n → EReal) (d : Fin n) : EReal := Ideal.div (r d) (len r)

/-- The cosine distance of two rows: one minus the inner product of the scaled rows. -/
def dist (u v : Fin n → EReal) : EReal := oneW - ∑ k : Fin n, unitRow u k * unitRow v k

/-- The least distance, from plus infinity, from `u` to the members of `S` of index below `lim`. -/
def upTo (u : Fin n → EReal) (S : Fin K → Fin n → EReal) (lim : Nat) : EReal :=
  (Finset.univ.filter fun s : Fin K => s.val < lim).fold min infW fun s => dist u (S s)

/-- The least distance, from plus infinity, from `u` to the members of `S`. -/
def nearest (u : Fin n → EReal) (S : Fin K → Fin n → EReal) : EReal :=
  (Finset.univ : Finset (Fin K)).fold min infW fun s => dist u (S s)

/-- Over no member the minimum is where it starts. -/
theorem upTo_zero (u : Fin n → EReal) (S : Fin K → Fin n → EReal) : upTo u S 0 = infW :=
  LibRowMin.fold_min_none _ _

/-- Over every member it is the nearest distance. -/
theorem upTo_all (u : Fin n → EReal) (S : Fin K → Fin n → EReal) : upTo u S K = nearest u S :=
  LibRowMin.fold_min_all _ _

/-- One more block: the minimum so far against the minimum, from plus infinity, over a block `T` of `L` rows that
    are the members `lim, …, lim + L - 1` of `S`. -/
theorem upTo_block (u : Fin n → EReal) (S : Fin K → Fin n → EReal) (T : Fin L → Fin n → EReal) (lim : Nat)
    (hlim : lim + L ≤ K) (hT : ∀ (j : Fin L) (s : Fin K), s.val = lim + j.val → T j = S s) :
    min (upTo u S lim) ((Finset.univ : Finset (Fin L)).fold min infW fun j => dist u (T j)) = upTo u S (lim + L) :=
  LibRowMin.fold_min_extend infW (fun s => dist u (S s)) (fun j => dist u (T j)) lim hlim
    fun j s hs => congrArg (dist u) (hT j s hs)

/-- Row (b, q) of a rank-3 array: its entries along the last axis. -/
abbrev row3 {A R D : Nat} (x : (⟨3, ![A, R, D]⟩ : Shape).Idx → EReal) (b : Fin A) (q : Fin R) : Fin D → EReal :=
  fun d => x (ix3 b q d)

/-- The array of nearest distances: at (b, q), from row (b, q) of `x0` to the rows of batch `b` of `x1`. -/
def nearestAll {A R P D : Nat} (x0 : (⟨3, ![A, R, D]⟩ : Shape).Idx → EReal) (x1 : (⟨3, ![A, P, D]⟩ : Shape).Idx → EReal) :
    (⟨2, ![A, R]⟩ : Shape).Idx → EReal :=
  fun i => nearest (row3 x0 ⟨(i 0).val, (i 0).isLt⟩ ⟨(i 1).val, (i 1).isLt⟩) fun s => row3 x1 ⟨(i 0).val, (i 0).isLt⟩ s

theorem nearestAll_apply {A R P D : Nat} (x0 : (⟨3, ![A, R, D]⟩ : Shape).Idx → EReal)
    (x1 : (⟨3, ![A, P, D]⟩ : Shape).Idx → EReal) (b : Fin A) (q : Fin R) :
    nearestAll x0 x1 (ix2 b q) = nearest (row3 x0 b q) fun s => row3 x1 b s := rfl

/-- The mean over the second axis as both programs take it on the host: the sum from the zero word along that axis,
    divided by the f32 value 2048 broadcast over the batch. -/
def meanTail (h1 : (⟨2, ![8, 2048]⟩ : Shape).ReducesTo [1] ⟨1, ![8]⟩) (h2 : 0 < (⟨0, ![]⟩ : Shape).numel)
    (h3 : (⟨0, ![]⟩ : Shape).BroadcastsInDim ⟨1, ![8]⟩ (![] : Fin 0 → Fin 1))
    (D : FVec Ideal ⟨2, ![8, 2048]⟩ .f32) : FVec Ideal ⟨1, ![8]⟩ .f32 :=
  Host.divf (Host.reduceAdd D (constant (F := Ideal) ⟨0, ![]⟩ .f32 0x00000000#32) h1 h2)
    (broadcastInDim ⟨1, ![8]⟩ ![] h3 (constant (F := Ideal) ⟨0, ![]⟩ .f32 0x45000000#32))

end Cert.Nearest

end
-- ==== Proof.RefNearest.lean ====
/-
  The reference, read index by index. Its scaled query array holds, at (b, q, d), entry d of the unit row of query row
  (b, q) — the row's entry over the larger of `sqrt` of the sum of the row's squares and the floor —, and likewise
  its scaled support array; its distance array holds at (b, q, s) one minus the inner product of those two unit rows;
  the minimum along the last axis, taken from plus infinity, is then the nearest distance from query row (b, q) to the
  support rows of batch b; and the result is the host mean of that array.
-/
import proofs.«139094_j22660247453906_2_alg».proof.Proof.Gen.ReferenceIdeal.Read
import proofs.«139094_j22660247453906_2_alg».proof.Proof.Nearest
import proofs.«139094_j22660247453906_2_alg».proof.Proof.LibRowMin

noncomputable section

namespace Cert.RefNearest

open Cert.ReferenceIdeal Cert.ReferenceIdeal.Gen Cert.ReferenceIdeal.Read
open Idealize.ShloMosaic Idealize.ShloMosaic.ValueIdx Cert.Nearest

/-- The scaled query array at (b, q, d): entry d of the unit row of query row (b, q). -/
theorem query_unit (x0 : (⟨S8x2048x512, .f32⟩ : BufTy).Contents (Elt Ideal)) (b : Fin 8) (q : Fin 2048) (d : Fin 512) :
    val_main_v7 (F := Ideal) x0 (ix3 b q d) = unitRow (row3 x0 b q) d := by
  have e6 : idx_main_v6 (ix3 b q d) = ix3 b q (0 : Fin 1) :=
    funext fun a => Fin.ext (by match a with | ⟨0, _⟩ => rfl | ⟨1, _⟩ => rfl | ⟨2, _⟩ => rfl)
  have e2 : idx_main_v2 (ix3 b q (0 : Fin 1)) = ix2 b q :=
    funext fun a => Fin.ext (by match a with | ⟨0, _⟩ => rfl | ⟨1, _⟩ => rfl)
  have e1 : ∀ k, idx_main_v1 (ix2 b q) k = ix3 b q k := fun k =>
    funext fun a => Fin.ext (by match a with | ⟨0, _⟩ => rfl | ⟨1, _⟩ => rfl | ⟨2, _⟩ => rfl)
  rw [val_main_v7_apply, val_main_v6_apply, e6, val_main_v5_apply, val_main_v3_apply, val_main_v2_apply, e2,
    val_main_v1_apply, val_main_v4_apply]
  simp only [e1, val_main_v0_apply, val_main_cst_apply, val_main_cst_0_apply, Ideal.hostDivf_def, Ideal.maximumf_def,
    Ideal.hostUnary_sqrt_def, Ideal.mulf_def, Ideal.ofBits_def, Ideal.ofBits_zero_f32, zero_add]
  rfl

/-- The scaled support array at (b, s, d): entry d of the unit row of support row (b, s). -/
theorem support_unit (x1 : (⟨S8x4096x512, .f32⟩ : BufTy).Contents (Elt Ideal)) (b : Fin 8) (s : Fin 4096) (d : Fin 512) :
    val_main_v15 (F := Ideal) x1 (ix3 b s d) = unitRow (row3 x1 b s) d := by
  have e14 : idx_main_v14 (ix3 b s d) = ix3 b s (0 : Fin 1) :=
    funext fun a => Fin.ext (by match a with | ⟨0, _⟩ => rfl | ⟨1, _⟩ => rfl | ⟨2, _⟩ => rfl)
  have e10 : idx_main_v10 (ix3 b s (0 : Fin 1)) = ix2 b s :=
    funext fun a => Fin.ext (by match a with | ⟨0, _⟩ => rfl | ⟨1, _⟩ => rfl)
  have e9 : ∀ k, idx_main_v9 (ix2 b s) k = ix3 b s k := fun k =>
    funext fun a => Fin.ext (by match a with | ⟨0, _⟩ => rfl | ⟨1, _⟩ => rfl | ⟨2, _⟩ => rfl)
  rw [val_main_v15_apply, val_main_v14_apply, e14, val_main_v13_apply, val_main_v11_apply, val_main_v10_apply, e10,
    val_main_v9_apply, val_main_v12_apply]
  simp only [e9, val_main_v8_apply, val_main_cst_1_apply, val_main_cst_2_apply, Ideal.hostDivf_def, Ideal.maximumf_def,
    Ideal.hostUnary_sqrt_def, Ideal.mulf_def, Ideal.ofBits_def, Ideal.ofBits_zero_f32, zero_add]
  rfl

/-- The distance array at (b, q, s): the cosine distance of query row (b, q) and support row (b, s). -/
theorem dist_apply (x0 : (⟨S8x2048x512, .f32⟩ : BufTy).Contents (Elt Ideal))
    (x1 : (⟨S8x4096x512, .f32⟩ : BufTy).Contents (Elt Ideal)) (b : Fin 8) (q : Fin 2048) (s : Fin 4096) :
    val_main_v18 (F := Ideal) x0 x1 (ix3 b q s) = dist (row3 x0 b q) (row3 x1 b s) := by
  have el : ∀ k, lidx_main_v16 (ix3 b q s) k = ix3 b q k := fun k =>
    funext fun a => Fin.ext (by match a with | ⟨0, _⟩ => rfl | ⟨1, _⟩ => rfl | ⟨2, _⟩ => rfl)
  have er : ∀ k, ridx_main_v16 (ix3 b q s) k = ix3 b s k := fun k =>
    funext fun a => Fin.ext (by match a with | ⟨0, _⟩ => rfl | ⟨1, _⟩ => rfl | ⟨2, _⟩ => rfl)
  rw [val_main_v18_apply, val_main_v17_apply, val_main_v16_apply]
  simp only [el, er, query_unit, support_unit, val_main_cst_3_apply, Ideal.subf_def, Ideal.ofBits_def]
  rfl

/-- The minimum along the last axis of the distance array is the array of nearest distances. -/
theorem min_eq_nearestAll (x0 : (⟨S8x2048x512, .f32⟩ : BufTy).Contents (Elt Ideal))
    (x1 : (⟨S8x4096x512, .f32⟩ : BufTy).Contents (Elt Ideal)) :
    val_main_v19 (F := Ideal) x0 x1 = nearestAll x0 x1 := by
  funext i
  obtain ⟨b, q, rfl⟩ : ∃ (b : Fin 8) (q : Fin 2048), i = ix2 b q := ⟨i 0, i 1, eq_ix2 i⟩
  unfold val_main_v19
  rw [LibRowMin.hostLastMin_apply _ _ _ (by decide) _ b q, nearestAll_apply]
  unfold nearest
  simp only [dist_apply]
  rfl

/-- The reference's result: the host mean of the array of nearest distances. -/
theorem result_eq (x0 : (⟨S8x2048x512, .f32⟩ : BufTy).Contents (Elt Ideal))
    (x1 : (⟨S8x4096x512, .f32⟩ : BufTy).Contents (Elt Ideal)) :
    val_main_v22 (F := Ideal) x0 x1 = meanTail reducesTo_S8x2048_S8_d1 h_S_ bcast_S_S8 (nearestAll x0 x1) := by
  rw [← min_eq_nearestAll]
  rfl

end Cert.RefNearest

end
-- ==== Proof.KernelPieces.lean ====
/-
  What one run of the kernel body leaves behind, as values of what it loaded, at any float instance.
  The body keeps a running minimum in a scratch column. At the first support tile of a query tile it first fills the
  column with plus infinity; at every tile it replaces the column by `step q s column`, the smaller, row by row, of
  the column and the tile's own row minima (`Gen.k0_pay3`); at the last support tile it also copies the column into
  the output block (`Gen.k0_pay1`, a change of shape only). So the column after a first tile is `step q s` of the
  column of infinities, after any later tile `step q s` of the column the tile before left, and the output block after
  a last tile is that new column reshaped.
-/
import proofs.«139094_j22660247453906_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first support tile (case A): the column is filled with plus infinity, then stepped. -/
theorem scratch_A (c : Dev nD) (i : grid0.Coords) (arg3 : Memref sig .tc .vmem S1x512x512 .f32) (harg3 : arg3.IsWhole) (arg4 : Memref sig .tc .vmem S1x1024x512 .f32) (harg4 : arg4.IsWhole) (arg5 : Memref sig .tc .vmem S1x512x1 .f32) (harg5 : arg5.IsWhole) (arg6 : Memref sig .tc .vmem S512x1 .f32) (harg6 : arg6.IsWhole) (hc0 : cond0_0 i) (hc1 : ¬cond0_1 i)
    (x0 : Vec F S1x512x512 .f32) (x1 : Vec F S1x1024x512 .f32) :
    sout0_A_0 c i arg3 harg3 arg4 harg4 arg5 harg5 arg6 harg6 hc0 hc1 x0 x1 = k0_pay3 x0 x1 (k0_pay2 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1) hz2]
  simp only [View.readCov_unit_zero (S := S512x1) _ hz2, View.readAt_eq_ld, harg3.read_unread, harg4.read_unread,
    View.ld_unit_zero (S := S1x512x512) hz3, View.ld_unit_zero (S := S1x1024x512) hz3, View.ld_unit_zero (S := S512x1) hz2]

/-- A middle support tile (case B): the column the tile before left, stepped. -/
theorem scratch_B (c : Dev nD) (i : grid0.Coords) (arg3 : Memref sig .tc .vmem S1x512x512 .f32) (harg3 : arg3.IsWhole) (arg4 : Memref sig .tc .vmem S1x1024x512 .f32) (harg4 : arg4.IsWhole) (arg5 : Memref sig .tc .vmem S1x512x1 .f32) (harg5 : arg5.IsWhole) (arg6 : Memref sig .tc .vmem S512x1 .f32) (harg6 : arg6.IsWhole) (hc0 : ¬cond0_0 i) (hc1 : ¬cond0_1 i)
    (x0 : Vec F S1x512x512 .f32) (x1 : Vec F S1x1024x512 .f32) (xs0 : Vec F S512x1 .f32) :
    sout0_B_0 c i arg3 harg3 arg4 harg4 arg5 harg5 arg6 harg6 hc0 hc1 x0 x1 xs0 = k0_pay3 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz2]
  simp only [View.readAt_eq_ld, harg3.read_unread, harg4.read_unread, harg6.read_unread,
    View.ld_unit_zero (S := S1x512x512) hz3, View.ld_unit_zero (S := S1x1024x512) hz3, View.ld_unit_zero (S := S512x1) hz2]

/-- A last support tile (case C): the column is stepped as in the middle, -/
theorem scratch_C (c : Dev nD) (i : grid0.Coords) (arg3 : Memref sig .tc .vmem S1x512x512 .f32) (harg3 : arg3.IsWhole) (arg4 : Memref sig .tc .vmem S1x1024x512 .f32) (harg4 : arg4.IsWhole) (arg5 : Memref sig .tc .vmem S1x512x1 .f32) (harg5 : arg5.IsWhole) (arg6 : Memref sig .tc .vmem S512x1 .f32) (harg6 : arg6.IsWhole) (hc0 : ¬cond0_0 i) (hc1 : cond0_1 i)
    (x0 : Vec F S1x512x512 .f32) (x1 : Vec F S1x1024x512 .f32) (xs0 : Vec F S512x1 .f32) :
    sout0_C_0 c i arg3 harg3 arg4 harg4 arg5 harg5 arg6 harg6 hc0 hc1 x0 x1 xs0 = k0_pay3 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz2]
  simp only [View.readAt_eq_ld, harg3.read_unread, harg4.read_unread, harg6.read_unread,
    View.ld_unit_zero (S := S1x512x512) hz3, View.ld_unit_zero (S := S1x1024x512) hz3, View.ld_unit_zero (S := S512x1) hz2]

/-- and the output block is the stepped column, reshaped. -/
theorem out_C (c : Dev nD) (i : grid0.Coords) (arg3 : Memref sig .tc .vmem S1x512x512 .f32) (harg3 : arg3.IsWhole) (arg4 : Memref sig .tc .vmem S1x1024x512 .f32) (harg4 : arg4.IsWhole) (arg5 : Memref sig .tc .vmem S1x512x1 .f32) (harg5 : arg5.IsWhole) (arg6 : Memref sig .tc .vmem S512x1 .f32) (harg6 : arg6.IsWhole) (hc0 : ¬cond0_0 i) (hc1 : cond0_1 i)
    (x0 : Vec F S1x512x512 .f32) (x1 : Vec F S1x1024x512 .f32) (xs0 : Vec F S512x1 .f32) :
    out0_C_2 c i arg3 harg3 arg4 harg4 arg5 harg5 arg6 harg6 hc0 hc1 x0 x1 xs0 = k0_pay1 (k0_pay3 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz3]
  simp only [View.readCov_unit_zero (S := S512x1) _ hz2, View.readAt_eq_ld, harg3.read_unread, harg4.read_unread, harg6.read_unread,
    View.ld_unit_zero (S := S1x512x512) hz3, View.ld_unit_zero (S := S1x1024x512) hz3, View.ld_unit_zero (S := S512x1) hz2]

end Cert.KernelIdeal.Pieces

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.LibRowDot.lean ====
/-
  General facts, at the exact instance (floats as extended reals), about a matrix product whose two operands are both
  contracted along their SECOND axis (x of [M, K] against w of [N, K], the product x · wᵀ of [M, N]), read at an index
  written by its coordinates, and about one row broadcast down a matrix.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowDot

open Idealize.ShloMosaic Idealize.ShloMosaic.ValueIdx

variable {α : Type} {M K N : Nat}

/-- A matrix product of an [M, K] matrix by the transpose of an [N, K] matrix into the zero accumulator, read at
    (p, q): the sum over the contracted coordinate k of x(p, k) · w(q, k). The four hypotheses say which operand
    coordinate each of the product's index maps takes from the output index and which from the contraction index. -/
theorem matmul_zero_rr {φ₁ φ₂ : FTy} (D : DotDims ⟨2, ![M, K]⟩ ⟨2, ![N, K]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (i 1).val)
    (hr1 : ∀ (i : (⟨2, ![M, N]⟩ : Shape).Idx) (c : D.contr.Idx), (D.rhsIdx i c 1).val = (c ⟨0, by omega⟩).val)
    (prec : Option ContractPrecision)
    (x : FVec Ideal ⟨2, ![M, K]⟩ φ₁) (w : FVec Ideal ⟨2, ![N, K]⟩ φ₂) (p : Fin M) (q : Fin N) :
    matmul D prec x w (constant ⟨2, ![M, N]⟩ .f32 0x00000000#32) (ix2 p q) = ∑ k : Fin K, x (ix2 p k) * w (ix2 q k) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- A [1, N] row, cast to its own shape and broadcast down to [M, N], reads at (p, q) the row at (0, q). -/
theorem rowDown_rc (v : (⟨2, ![1, N]⟩ : Shape).Idx → α) (h1 : (⟨2, ![1, N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix2 (0 : Fin 1) q) := by
  rw [shapeCast_self]
  exact broadcastTo_1b_ab_apply v h2 p q

end Cert.LibRowDot

end
-- ==== Proof.KernelStep.lean ====
/-
  The kernel body's arithmetic, read at an index at the exact instance.
  From a query tile `q` of 512 rows, a support tile `s` of 1024 rows and the scratch column `acc`, the body scales
  every row of both tiles to unit length, multiplies the scaled query tile by the transpose of the scaled support tile
  (so entry (p, j) is the inner product of scaled rows p and j; the change of format before the product is the identity
  here), subtracts from one, takes each row's minimum from plus infinity, and keeps the smaller of that and `acc`.
  Hence the new column at row p is the smaller of `acc` at p and the least cosine distance from query row p to the
  tile's 1024 support rows. The column of infinities reads plus infinity everywhere, and the output block is the
  column with a leading unit axis.
-/
import proofs.«139094_j22660247453906_2_alg».proof.Proof.Gen.KernelIdeal.Skeleton
import proofs.«139094_j22660247453906_2_alg».proof.Proof.Nearest
import proofs.«139094_j22660247453906_2_alg».proof.Proof.LibRowMin
import proofs.«139094_j22660247453906_2_alg».proof.Proof.LibDense
import proofs.«139094_j22660247453906_2_alg».proof.Proof.LibRowDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen
open Idealize.ShloMosaic Idealize.ShloMosaic.ValueIdx Cert.Nearest

/-- A tile of R rows, its leading unit axis dropped, each row divided by the larger of its length and the floor: at
    (p, d), entry d of the unit row of the tile's row p. -/
theorem scaled_apply {R D : Nat} (x : (⟨3, ![1, R, D]⟩ : Shape).Idx → EReal)
    (hc : (⟨3, ![1, R, D]⟩ : Shape).ShapeCasts ⟨2, ![R, D]⟩) (hr : (⟨2, ![R, D]⟩ : Shape).Reduces [1] ⟨1, ![R]⟩)
    (hφ : FKind.Formats .f32) (hacc : (0x00000000#32 : BitVec 32) = 0x00000000#32)
    (hs : (⟨1, ![R]⟩ : Shape).ShapeCasts ⟨2, ![R, 1]⟩) (hb : (⟨2, ![R, 1]⟩ : Shape).Broadcasts ⟨2, ![R, D]⟩)
    (hlt : FTy.bits .bf16 < FTy.bits .f32) (p : Fin R) (d : Fin D) :
    truncf (F := Ideal) .bf16 (divf (shapeCast ⟨2, ![R, D]⟩ x hc) (broadcastTo ⟨2, ![R, D]⟩
        (maximumf (sqrt (shapeCast ⟨2, ![R, 1]⟩ (multiReduction .add [1] ⟨1, ![R]⟩
            (mulf (shapeCast ⟨2, ![R, D]⟩ x hc) (shapeCast ⟨2, ![R, D]⟩ x hc)) 0x00000000#32 hr hφ hacc) hs))
          (broadcast ⟨2, ![R, 1]⟩ (Scalar.ofBits (F := Ideal) .f32 0x2B8CBCCC#32))) hb)) hlt (ix2 p d)
      = unitRow (row3 x 0 p) d := by
  rw [truncf_apply, divf_apply, LibDense.broadcastTo_a1_ab_apply, maximumf_apply, broadcast_apply]
  show Ideal.div _ (max (Ideal.sqrt (shapeCast ⟨2, ![R, 1]⟩ _ hs (ix2 p (0 : Fin 1)))) _) = _
  rw [LibDense.shapeCast_a_a1_apply, LibDense.rowSum_apply, shapeCast_1ab_ab_apply]
  simp only [mulf_apply, shapeCast_1ab_ab_apply]
  rfl

/-- One minus the product of a matrix A of M rows by the transpose of a matrix B of N rows, at (p, k): one minus the
    inner product of row p of A and row k of B. -/
theorem oneMinusDot_apply {M N D : Nat} (Dd : DotDims ⟨2, ![M, D]⟩ ⟨2, ![N, D]⟩ ⟨2, ![M, N]⟩) (hr : Dd.contr.rank = 1)
    (hs : Dd.contr.size ⟨0, by omega⟩ = D)
    (hl0 : ∀ (i : (⟨2, ![M, N]⟩ : Shape).Idx) (c : Dd.contr.Idx), (Dd.lhsIdx i c 0).val = (i 0).val)
    (hl1 : ∀ (i : (⟨2, ![M, N]⟩ : Shape).Idx) (c : Dd.contr.Idx), (Dd.lhsIdx i c 1).val = (c ⟨0, by omega⟩).val)
    (hr0 : ∀ (i : (⟨2, ![M, N]⟩ : Shape).Idx) (c : Dd.contr.Idx), (Dd.rhsIdx i c 0).val = (i 1).val)
    (hr1 : ∀ (i : (⟨2, ![M, N]⟩ : Shape).Idx) (c : Dd.contr.Idx), (Dd.rhsIdx i c 1).val = (c ⟨0, by omega⟩).val)
    (A : FVec Ideal ⟨2, ![M, D]⟩ .bf16) (Bm : FVec Ideal ⟨2, ![N, D]⟩ .bf16) (p : Fin M) (k : Fin N) :
    subf (broadcast ⟨2, ![M, N]⟩ (Scalar.ofBits (F := Ideal) .f32 0x3F800000#32))
        (matmul Dd none A Bm (constant ⟨2, ![M, N]⟩ .f32 0x00000000#32)) (ix2 p k)
      = oneW - ∑ d : Fin D, A (ix2 p d) * Bm (ix2 k d) := by
  rw [subf_apply, broadcast_apply, LibRowDot.matmul_zero_rr Dd hr hs hl0 hl1 hr0 hr1]
  rfl

/-- A column against the row minima, from plus infinity, of a matrix: at row p the smaller of the column there and the
    least entry of the matrix's row p. -/
theorem stepCol_apply {M N : Nat} (acc : FVec Ideal ⟨2, ![M, 1]⟩ .f32) (Dm : FVec Ideal ⟨2, ![M, N]⟩ .f32)
    (hr : (⟨2, ![M, N]⟩ : Shape).Reduces [1] ⟨1, ![M]⟩) (hφ : FKind.Formats .f32)
    (hacc : (0x7F800000#32 : BitVec 32) = FKind.minimumf.neutral .f32 hφ)
    (hs : (⟨1, ![M]⟩ : Shape).ShapeCasts ⟨2, ![M, 1]⟩) (hs' : (⟨2, ![M, 1]⟩ : Shape).ShapeCasts ⟨2, ![M, 1]⟩)
    (p : Fin M) (u : Fin 1) :
    shapeCast ⟨2, ![M, 1]⟩ (minimumf acc (shapeCast ⟨2, ![M, 1]⟩
        (multiReduction .minimumf [1] ⟨1, ![M]⟩ Dm 0x7F800000#32 hr hφ hacc) hs)) hs' (ix2 p u)
      = min (acc (ix2 p u)) ((Finset.univ : Finset (Fin N)).fold min infW fun k => Dm (ix2 p k)) := by
  rw [shapeCast_self, minimumf_apply, LibDense.shapeCast_a_a1_apply, LibRowMin.rowMin_apply]

/-! The product's index maps: the output's row picks the query row, its column the support row, and the contracted
    coordinate runs along both rows. -/

theorem lhs0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl

theorem lhs1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q

theorem rhs0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl

theorem rhs1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The new column at row p: the smaller of the old column there and the least cosine distance from the query tile's
    row p to the support tile's rows. -/
theorem step_apply (x0 : Vec Ideal S1x512x512 .f32) (x1 : Vec Ideal S1x1024x512 .f32) (acc : Vec Ideal S512x1 .f32)
    (p : Fin 512) (u : Fin 1) :
    k0_pay3 (F := Ideal) x0 x1 acc (ix2 p u)
      = min (acc (ix2 p u)) ((Finset.univ : Finset (Fin 1024)).fold min infW fun j => dist (row3 x0 0 p) (row3 x1 0 j)) := by
  unfold k0_pay3
  dsimp only
  refine (stepCol_apply acc _ _ _ _ _ _ p u).trans ?_
  refine congrArg (min (acc (ix2 p u))) ?_
  refine congrArg (fun f => Finset.fold min infW f (Finset.univ : Finset (Fin 1024))) (funext fun j => ?_)
  refine (oneMinusDot_apply dot_S512x512_S1024x512_S512x1024_1_1_0_0_n_n rfl rfl lhs0 lhs1 rhs0 rhs1 _ _ p j).trans ?_
  unfold Nearest.dist
  refine congrArg (oneW - ·) (Finset.sum_congr rfl fun d _ => ?_)
  exact congrArg₂ (· * ·) (scaled_apply x0 _ _ _ _ _ _ _ p d) (scaled_apply x1 _ _ _ _ _ _ _ j d)

/-- The column of infinities reads plus infinity. -/
theorem inf_apply (i : S512x1.Idx) : k0_pay2 (F := Ideal) i = infW := by
  unfold k0_pay2
  rw [shapeCast_self]
  rfl

/-- The output block is the column with a leading unit axis. -/
theorem out_apply (v : Vec Ideal S512x1 .f32) (u : Fin 1) (p : Fin 512) (w : Fin 1) :
    k0_pay1 (F := Ideal) v (ix3 u p w) = v (ix2 p w) := by
  unfold k0_pay1
  exact shapeCast_ab_1ab_apply v _ u p w

end Cert.KernelIdeal.Step

end
-- ==== Proof.KernelValue.lean ====
/-
  The kernel's value at the exact instance. The grid's point t is (b, qi, ki) = (t / 16, t / 4 mod 4, t mod 4): batch b,
  query tile qi (rows 512·qi … 512·qi + 511), support tile ki (rows 1024·ki … 1024·ki + 1023), the support tiles of one
  query tile visited in order. The scratch column, after point t, holds at row p the least cosine distance from query
  row (b, 512·qi + p) to the support rows of batch b of index below 1024·(ki + 1) — by induction over the points, each
  step joining the minimum so far with the minimum over the next 1024 rows. At ki = 3 that is the nearest distance over
  all 4096 support rows, and it is what the point writes back to rows 512·qi … of the output's batch b. Those 32 blocks
  cover the [8, 2048, 1] array, so it ends holding the array of nearest distances with a trailing unit axis; the host
  then drops that axis and takes the mean along the rows.
-/
import proofs.«139094_j22660247453906_2_alg».proof.Proof.Gen.KernelIdeal.Frame
import proofs.«139094_j22660247453906_2_alg».proof.Proof.KernelPieces
import proofs.«139094_j22660247453906_2_alg».proof.Proof.KernelStep
import proofs.«139094_j22660247453906_2_alg».proof.Proof.Nearest
import Idealize.ShloMosaic.Lib.Pipeline.Value
import Idealize.ShloMosaic.Lib.StableHlo.Run
import Idealize.ShloMosaic.Lib.Tactic

set_option maxRecDepth 16384

noncomputable section

namespace Cert.KernelIdeal.Near

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Cert.Nearest

variable (m : (ℓ : Loc nD τ sig) → Buf (Elt Ideal) ℓ) (ρ : Dev nD → PrngReg)

/-- The query and support arrays as the run finds them. -/
abbrev X0 (c : Dev nD) : S8x2048x512.Idx → EReal := m ((c : Thread nD τ).loc main_arg0)
abbrev X1 (c : Dev nD) : S8x4096x512.Idx → EReal := m ((c : Thread nD τ).loc main_arg1)

theorem lt128 (t : Fin cfg0.N) : t.val < 128 := lt_of_lt_of_eq t.isLt (show cfg0.N = 128 from N_0)

/-- The batch of point t, the array row of row p of its query tile, the array row of row j of its support tile. -/
def bOf (t : Fin cfg0.N) : Fin 8 := ⟨t.val / 16, by have := lt128 t; omega⟩
def qOf (t : Fin cfg0.N) (p : Fin 512) : Fin 2048 := ⟨t.val / 4 % 4 * 512 + p.val, by have := p.isLt; omega⟩
def sOf (t : Fin cfg0.N) (j : Fin 1024) : Fin 4096 := ⟨t.val % 4 * 1024 + j.val, by have := j.isLt; omega⟩

/-- The printed index maps, decided over the grid. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val / 4 % 4 ∧ win0_2.index t (2 : Fin 3) = 0 :=
  (by decide +kernel : ∀ t : Fin grid0.N, _)

/-- The query tile of point t reads the query array at batch b, rows 512·qi + p. -/
theorem qblock_apply (c : Dev nD) (t : Fin cfg0.N) (u : Fin 1) (p : Fin 512) (d : Fin 512) :
    (iblk m c 0 t : Vec Ideal S1x512x512 .f32) (ix3 u p d) = X0 m c (ix3 (bOf t) (qOf t p) d) := by
  obtain ⟨e0, e1, e2, -⟩ := idx_facts t
  have hu : u.val = 0 := by omega
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 1 + 1 * u.val = t.val / 16; rw [e0, hu]; omega
  | ⟨1, _⟩ => show win0_0.index t (1 : Fin 3) * 512 + 1 * p.val = t.val / 4 % 4 * 512 + p.val; rw [e1]; omega
  | ⟨2, _⟩ => show win0_0.index t (2 : Fin 3) * 512 + 1 * d.val = d.val; rw [e2]; omega

/-- The support tile of point t reads the support array at batch b, rows 1024·ki + j. -/
theorem sblock_apply (c : Dev nD) (t : Fin cfg0.N) (u : Fin 1) (j : Fin 1024) (d : Fin 512) :
    (iblk m c 1 t : Vec Ideal S1x1024x512 .f32) (ix3 u j d) = X1 m c (ix3 (bOf t) (sOf t j) d) := by
  obtain ⟨-, -, -, e0, e1, e2, -⟩ := idx_facts t
  have hu : u.val = 0 := by omega
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 3) * 1 + 1 * u.val = t.val / 16; rw [e0, hu]; omega
  | ⟨1, _⟩ => show win0_1.index t (1 : Fin 3) * 1024 + 1 * j.val = t.val % 4 * 1024 + j.val; rw [e1]; omega
  | ⟨2, _⟩ => show win0_1.index t (2 : Fin 3) * 512 + 1 * d.val = d.val; rw [e2]; omega

/-- The least distance from query row p of point t's tile to the support rows of its batch of index below `lim`. -/
abbrev sofar (c : Dev nD) (t : Fin cfg0.N) (p : Fin 512) (lim : Nat) : EReal :=
  upTo (row3 (X0 m c) (bOf t) (qOf t p)) (fun s => row3 (X1 m c) (bOf t) s) lim

/-- One point: from a column holding the minimum over the support rows before this tile, the body leaves the minimum
    over those and this tile's rows. -/
theorem step_point (c : Dev nD) (t : Fin cfg0.N) (acc : Vec Ideal S512x1 .f32) (p : Fin 512) (u : Fin 1)
    (hacc : acc (ix2 p u) = sofar m c t p (t.val % 4 * 1024)) :
    k0_pay3 (F := Ideal) (iblk m c 0 t) (iblk m c 1 t) acc (ix2 p u) = sofar m c t p (t.val % 4 * 1024 + 1024) := by
  refine (Step.step_apply (iblk m c 0 t) (iblk m c 1 t) acc p u).trans ?_
  rw [hacc]
  have eu : row3 (iblk m c 0 t : Vec Ideal S1x512x512 .f32) 0 p = row3 (X0 m c) (bOf t) (qOf t p) :=
    funext fun d => qblock_apply m c t 0 p d
  rw [eu]
  have h4 : t.val % 4 < 4 := Nat.mod_lt _ (by decide)
  exact upTo_block _ _ (fun j => row3 (iblk m c 1 t : Vec Ideal S1x1024x512 .f32) 0 j) (t.val % 4 * 1024) (by omega)
    fun j s hs => funext fun d => (sblock_apply m c t 0 j d).trans
      (congrArg (fun s' => X1 m c (ix3 (bOf t) s' d)) (Fin.ext (by show t.val % 4 * 1024 + j.val = s.val; omega)))

/-- The running minimum: after point n the scratch column holds, at row p, the least distance from the point's query
    row p to the support rows of index below 1024·(ki + 1). -/
theorem scratch_eq (c : Dev nD) : ∀ (n : ℕ) (hn : n < cfg0.N) (p : Fin 512) (u : Fin 1),
    (outsAt0 m c n hn).2 (ix2 p u) = sofar m c ⟨n, hn⟩ p (n % 4 * 1024 + 1024) := by
  intro n
  induction n with
  | zero =>
    intro hn p u
    have h0 : (⟨0, hn⟩ : Fin cfg0.N).val % 4 = 0 := rfl
    have h1 : ¬(⟨0, hn⟩ : Fin cfg0.N).val % 4 = 3 := by show ¬(0 % 4 = 3); decide
    rw [outsAt0_A m c ⟨0, hn⟩ h0 h1]
    dsimp only
    refine (congrFun (Pieces.scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩)) (ix2 p u)).trans ?_
    exact step_point m c ⟨0, hn⟩ (k0_pay2 (F := Ideal)) p u ((Step.inf_apply _).trans (upTo_zero _ _).symm)
  | succ n ih =>
    intro hn p u
    have hN := lt128 ⟨n + 1, hn⟩
    by_cases h0 : (n + 1) % 4 = 0
    · have h1 : ¬(n + 1) % 4 = 3 := by omega
      rw [outsAt0_A m c ⟨n + 1, hn⟩ h0 h1]
      dsimp only
      refine (congrFun (Pieces.scratch_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)) (ix2 p u)).trans ?_
      refine step_point m c ⟨n + 1, hn⟩ (k0_pay2 (F := Ideal)) p u ((Step.inf_apply _).trans ?_)
      show infW = sofar m c ⟨n + 1, hn⟩ p ((n + 1) % 4 * 1024)
      rw [h0]
      exact (upTo_zero _ _).symm
    · have hprev : (outsAt0 m c n (Nat.lt_of_succ_lt hn)).2 (ix2 p u) = sofar m c ⟨n + 1, hn⟩ p ((n + 1) % 4 * 1024) := by
        refine (ih (Nat.lt_of_succ_lt hn) p u).trans ?_
        have eb : bOf ⟨n, Nat.lt_of_succ_lt hn⟩ = bOf ⟨n + 1, hn⟩ := Fin.ext (by show n / 16 = (n + 1) / 16; omega)
        have eq : qOf ⟨n, Nat.lt_of_succ_lt hn⟩ p = qOf ⟨n + 1, hn⟩ p :=
          Fin.ext (by show n / 4 % 4 * 512 + p.val = (n + 1) / 4 % 4 * 512 + p.val; omega)
        have el : n % 4 * 1024 + 1024 = (n + 1) % 4 * 1024 := by omega
        show upTo _ _ _ = upTo _ _ _
        rw [eb, eq, el]
      by_cases h1 : (n + 1) % 4 = 3
      · rw [outsAt0_C m c ⟨n + 1, hn⟩ h0 h1]
        dsimp only
        refine (congrFun (Pieces.scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n (Nat.lt_of_succ_lt hn)).2) (ix2 p u)).trans ?_
        exact step_point m c ⟨n + 1, hn⟩ _ p u hprev
      · rw [outsAt0_B m c ⟨n + 1, hn⟩ h0 h1]
        dsimp only
        refine (congrFun (Pieces.scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c n (Nat.lt_of_succ_lt hn)).2) (ix2 p u)).trans ?_
        exact step_point m c ⟨n + 1, hn⟩ _ p u hprev

/-- The array of nearest distances, and the same with a trailing unit axis: what the output array is to hold. -/
abbrev target (c : Dev nD) : S8x2048.Idx → EReal := nearestAll (X0 m c) (X1 m c)
def colOf (D : S8x2048.Idx → EReal) : S8x2048x1.Idx → EReal :=
  fun i => D (ix2 ⟨(i 0).val, (i 0).isLt⟩ ⟨(i 1).val, (i 1).isLt⟩)

/-- At a last support tile the output block holds, at row p, the nearest distance of the tile's query row p. -/
theorem out_eq (c : Dev nD) (t : Fin cfg0.N) (h1 : t.val % 4 = 3) (y : S1x512x1.Idx) :
    (outsAt0 m c t.val t.isLt).1 y = target m c (ix2 (bOf t) (qOf t ⟨(y 1).val, (y 1).isLt⟩)) := by
  obtain ⟨u, p, w, rfl⟩ : ∃ (u : Fin 1) (p : Fin 512) (w : Fin 1), y = ix3 u p w := ⟨y 0, y 1, y 2, eq_ix3 y⟩
  have h0 : ¬t.val % 4 = 0 := by omega
  have hs := scratch_eq m c t.val t.isLt p w
  have e1 : (outsAt0 m c t.val t.isLt).1 = k0_pay1 (F := Ideal) (k0_pay3 (F := Ideal) (iblk m c 0 t) (iblk m c 1 t)
      (outsAt0 m c (t.val - 1) (Nat.lt_of_le_of_lt (Nat.sub_le _ _) t.isLt)).2) := by
    rw [outsAt0_C m c t h0 h1]
    dsimp only
    exact Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  have e2 : (outsAt0 m c t.val t.isLt).2 = k0_pay3 (F := Ideal) (iblk m c 0 t) (iblk m c 1 t)
      (outsAt0 m c (t.val - 1) (Nat.lt_of_le_of_lt (Nat.sub_le _ _) t.isLt)).2 := by
    rw [outsAt0_C m c t h0 h1]
    dsimp only
    exact Pieces.scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  rw [e1]
  refine (Step.out_apply _ u p w).trans ?_
  rw [← e2]
  refine hs.trans ?_
  show upTo _ _ _ = nearest _ _
  rw [show t.val % 4 * 1024 + 1024 = 4096 by omega]
  exact upTo_all _ _

/-- What the point of a last support tile writes back is its block of the array of nearest distances. -/
theorem flushed_eq (c : Dev nD) (t : Fin cfg0.N) (hf : (cfg0.win 2).flush t = true) :
    (dats m 0 c).flushed 2 t = ((cfg0.win 2).blk t).view.read (Elt Ideal) (colOf (target m c)) := by
  have h1 : t.val % 4 = 3 := (flush0_2 t).mp hf
  obtain ⟨-, -, -, -, -, -, e0, e1, e2⟩ := idx_facts t
  show (cfg0.win 2).cut (grid0.coords t) ((dats m 0 c).after 2 t) = _
  rw [after0_2]
  funext y
  show (outsAt0 m c t.val t.isLt).1 y = colOf (target m c) (((cfg0.win 2).blk t).view.emb y)
  refine (out_eq m c t h1 y).trans ?_
  unfold colOf
  refine congrArg (target m c) ?_
  funext a
  apply Fin.ext
  match a with
  | ⟨0, _⟩ => show t.val / 16 = win0_2.index t (0 : Fin 3) * 1 + 1 * (y 0).val; have hy : (y 0).val < 1 := (y 0).isLt; rw [e0]; omega
  | ⟨1, _⟩ => show t.val / 4 % 4 * 512 + (y 1).val = win0_2.index t (1 : Fin 3) * 512 + 1 * (y 1).val; rw [e1]; omega

/-- An index of the output array is in point t's block iff each coordinate is in the block's range on its axis. -/
theorem mem_blk (t : Fin cfg0.N) (i : S8x2048x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0).slice (win0_2.rect t)).set ↔ _
  rw [View.set_slice_whole, Rect.mem_set_unit]
  exact Iff.rfl

/-- The output array after the run: row (b, q) is in the block of the last support tile of query tile q / 512 of batch b,
    so the array is the array of nearest distances with a trailing unit axis. -/
theorem final (c : Dev nD) : (dats m 0 c).arrAt 2 cfg0.N = colOf (target m c) :=
  (dats m 0 c).arrAt_eq_of_cover 2 (colOf (target m c)) (fun t hf => flushed_eq m c t hf) fun i => by
    have h0 : (i 0).val < 8 := (i 0).isLt
    have h1 : (i 1).val < 2048 := (i 1).isLt
    have h2 : (i 2).val < 1 := (i 2).isLt
    have hlt : ((i 0).val * 4 + (i 1).val / 512) * 4 + 3 < cfg0.N := by rw [show cfg0.N = 128 from N_0]; omega
    refine ⟨⟨_, hlt⟩, (flush0_2 _).mpr (by show (((i 0).val * 4 + (i 1).val / 512) * 4 + 3) % 4 = 3; omega), ?_⟩
    obtain ⟨-, -, -, -, -, -, e0, e1, e2⟩ := idx_facts ⟨_, hlt⟩
    rw [mem_blk]
    intro a
    match a with
    | ⟨0, _⟩ => show win0_2.index ⟨_, hlt⟩ (0 : Fin 3) * 1 ≤ (i 0).val ∧ (i 0).val < win0_2.index ⟨_, hlt⟩ (0 : Fin 3) * 1 + 1; rw [e0]; dsimp only; omega
    | ⟨1, _⟩ => show win0_2.index ⟨_, hlt⟩ (1 : Fin 3) * 512 ≤ (i 1).val ∧ (i 1).val < win0_2.index ⟨_, hlt⟩ (1 : Fin 3) * 512 + 512; rw [e1]; dsimp only; omega
    | ⟨2, _⟩ => show win0_2.index ⟨_, hlt⟩ (2 : Fin 3) * 1 ≤ (i 2).val ∧ (i 2).val < win0_2.index ⟨_, hlt⟩ (2 : Fin 3) * 1 + 1; rw [e2]; omega

/-- An [a, c, 1] array with its trailing unit axis dropped reads, at (i, k), the operand at (i, k, 0). -/
theorem shapeCast_ac1_ac_apply {α : Type} {a k : ℕ} (x : (⟨3, ![a, k, 1]⟩ : Shape).Idx → α)
    (h : (⟨3, ![a, k, 1]⟩ : Shape).ShapeCasts ⟨2, ![a, k]⟩) (i : Fin a) (j : Fin k) :
    shapeCast ⟨2, ![a, k]⟩ x h (ix2 i j) = x (ix3 i j (0 : Fin 1)) :=
  shapeCast_apply x h _ _ (by
    rw [Shape.rowMajor_val_three, Shape.rowMajor_val_two]
    show (i.val * k + j.val) * 1 + 0 = i.val * k + j.val
    omega)

/-- The result: the host drops the output array's unit axis and takes the mean along the rows. -/
theorem result_eq (c : Dev nD) :
    Pipeline.afterTail₀ cfgs (dats m) 0 (V0 m) [hostOps1] c main_v4
      = meanTail reducesTo_S8x2048_S8_d1 h_S_ bcast_S_S8 (target m c) := by
  have hA : Pipeline.withArrays (cfgs 0).spec c (V0 m c) (fun w => (dats m 0 c).arrAt w (cfgs 0).N) (Proc.devRef .tc main_v0)
      = colOf (target m c) := (Pipeline.withArrays_arr spec0 launch0.win.arr_inj c _ _ 2).trans (final m c)
  unfold Pipeline.afterTail₀
  show StableHlo.after hostOps1 _ (Proc.devRef .tc main_v4) = _
  after_results
  unfold meanTail
  refine congrArg (fun D => Host.divf (Host.reduceAdd D (constant (F := Ideal) S_ .f32 0x00000000#32) reducesTo_S8x2048_S8_d1 h_S_)
    (broadcastInDim S8 ![] bcast_S_S8 (constant (F := Ideal) S_ .f32 0x45000000#32))) ?_
  funext i
  obtain ⟨b, q, rfl⟩ : ∃ (b : Fin 8) (q : Fin 2048), i = ix2 b q := ⟨i 0, i 1, eq_ix2 i⟩
  show shapeCast S8x2048 (Pipeline.withArrays (cfgs 0).spec c (V0 m c) (fun w => (dats m 0 c).arrAt w (cfgs 0).N) (Proc.devRef .tc main_v0))
    shapeCasts_S8x2048x1_S8x2048 (ix2 b q) = _
  refine (shapeCast_ac1_ac_apply _ _ b q).trans ?_
  exact congrFun hA (ix3 b q (0 : Fin 1))

/-- The kernel's run, read: the result at the host mean of the array of nearest distances, the arguments unchanged. -/
theorem run : θ_run defs (onTc (τ := τ) (main (F := Ideal))) ⟨m, fun _ => 0, ρ⟩ fun r => ∀ c : Dev nD,
      r.2.mem ((c : Thread nD τ).loc main_v4) = meanTail reducesTo_S8x2048_S8_d1 h_S_ bcast_S_S8 (target m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Near

end
-- ==== Proof.lean ====
/-
  A nearest-neighbour cosine distance, averaged: for each of 8 batches, each of 2048 query rows (512 features) is
  scaled to unit length, as is each of 4096 support rows; the cosine distance of a query row and a support row is one
  minus the inner product of the scaled rows; each query row keeps its least distance over the batch's support rows;
  the result, per batch, is the mean of those 2048 minima.

  The reference computes exactly that with whole-array host operations. The kernel visits, for each batch and each tile
  of 512 query rows, the four tiles of 1024 support rows in turn, keeping in a scratch column the least distance seen
  so far (from plus infinity at the first tile) and writing the column out after the fourth; the mean is taken on the
  host afterwards, by the same operations as the reference's. Over the extended reals the two agree because the
  minimum over 4096 rows is the minimum of the minima over four consecutive blocks of 1024 — a fact about `min` alone
  (commutative, associative, plus infinity taken in at every start), needing no finiteness of the inputs — while the
  per-row scaling and the inner products are the same sums and quotients on both sides (a change of float format
  before the kernel's matrix product is the identity at the exact instance).

  The three frames are the generated frame runs (the reference's is its generated run with the result dropped), the
  idealization rewrote nothing, and the value claim joins the kernel's run, read in KernelValue, to the reference's
  run, read in RefNearest, at the one function `meanTail (nearestAll query support)` of Nearest.
-/
import proofs.«139094_j22660247453906_2_alg».proof.Defs
import proofs.«139094_j22660247453906_2_alg».proof.Proof.Gen.Kernel
import proofs.«139094_j22660247453906_2_alg».proof.Proof.Gen.Kernel.Skeleton
import proofs.«139094_j22660247453906_2_alg».proof.Proof.Gen.Kernel.Launch
import proofs.«139094_j22660247453906_2_alg».proof.Proof.Gen.Kernel.Points
import proofs.«139094_j22660247453906_2_alg».proof.Proof.Gen.Kernel.Frame
import proofs.«139094_j22660247453906_2_alg».proof.Proof.Gen.KernelIdeal
import proofs.«139094_j22660247453906_2_alg».proof.Proof.Gen.KernelIdeal.Skeleton
import proofs.«139094_j22660247453906_2_alg».proof.Proof.Gen.KernelIdeal.Launch
import proofs.«139094_j22660247453906_2_alg».proof.Proof.Gen.KernelIdeal.Points
import proofs.«139094_j22660247453906_2_alg».proof.Proof.Gen.KernelIdeal.Frame
import proofs.«139094_j22660247453906_2_alg».proof.Proof.Gen.ReferenceIdeal
import proofs.«139094_j22660247453906_2_alg».proof.Proof.Gen.Pre_finite_inputs
import proofs.«139094_j22660247453906_2_alg».proof.Proof.Gen.ReferenceIdeal.Run
import proofs.«139094_j22660247453906_2_alg».proof.Proof.Gen.ReferenceIdeal.Read
import proofs.«139094_j22660247453906_2_alg».proof.Proof.Nearest
import proofs.«139094_j22660247453906_2_alg».proof.Proof.RefNearest
import proofs.«139094_j22660247453906_2_alg».proof.Proof.KernelValue
import Idealize.ShloMosaic.Adequacy
import Idealize.ShloMosaic.Init

noncomputable section

namespace Cert.Proof

open Idealize.ShloMosaic Idealize.ShloMosaic.TcCoe Idealize.SL.Sem Cert.Nearest

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the host mean of the array of nearest distances of arguments that agree. -/
theorem algebraic : Cert.algebraic_KernelIdeal_ReferenceIdeal := by
  intro m ρ m' ρ' _ hagree
  refine ⟨fun c => meanTail Cert.KernelIdeal.Gen.reducesTo_S8x2048_S8_d1 Cert.KernelIdeal.Gen.h_S_ Cert.KernelIdeal.Gen.bcast_S_S8
    (Cert.KernelIdeal.Near.target m c), Cert.KernelIdeal.Near.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefNearest.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
